-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x16 : Shape := ⟨2, ![262144, 16]⟩
abbrev S16x224 : Shape := ⟨2, ![16, 224]⟩
abbrev S262144 : Shape := ⟨1, ![262144]⟩
abbrev S_ : Shape := ⟨0, ![]⟩

class Facts : Prop where
  bcast_S_S262144x16 : S_.BroadcastsInDim S262144x16 (![] : Fin 0 → Fin S262144x16.rank)
  reducesTo_S262144x16_S_d0_1 : S262144x16.ReducesTo [0, 1] S_
  h_S_ : 0 < S_.numel
  bcast_S_S16x224 : S_.BroadcastsInDim S16x224 (![] : Fin 0 → Fin S16x224.rank)
  reducesTo_S16x224_S_d0_1 : S16x224.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x16 .f32) (main_arg1 : FVec F S16x224 .f32) (main_arg2 : FVec F S262144 .f32) : IVec S_ 1 :=
  let main_v0 : FVec F S262144x16 .f32 := Host.absf main_arg0
  let main_cst : FVec F S_ .f32 := constant S_ .f32 0x7F800000#32
  let main_v1 : FVec F S262144x16 .f32 := broadcastInDim S262144x16 ![] bcast_S_S262144x16 main_cst
  let main_v2 : IVec S262144x16 1 := cmpf .olt main_v0 main_v1
  let main_c : IVec S_ 1 := constantI S_ 1 1#1
  let main_v3 : IVec S_ 1 := (fun x v => Host.reduce IntOp.andi x v reducesTo_S262144x16_S_d0_1 h_S_) main_v2 main_c
  let main_v4 : FVec F S16x224 .f32 := Host.absf main_arg1
  let main_cst_0 : FVec F S_ .f32 := constant S_ .f32 0x7F800000#32
  let main_v5 : FVec F S16x224 .f32 := broadcastInDim S16x224 ![] bcast_S_S16x224 main_cst_0
  let main_v6 : IVec S16x224 1 := cmpf .olt main_v4 main_v5
  let main_c_1 : IVec S_ 1 := constantI S_ 1 1#1
  let main_v7 : IVec S_ 1 := (fun x v => Host.reduce IntOp.andi x v reducesTo_S16x224_S_d0_1 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  main_v13
-- ==== Kernel.lean ====
abbrev S262144x16 : Shape := ⟨2, ![262144, 16]⟩
abbrev S16x224 : Shape := ⟨2, ![16, 224]⟩
abbrev S262144 : Shape := ⟨1, ![262144]⟩
abbrev S262144x1 : Shape := ⟨2, ![262144, 1]⟩
abbrev S262144x224 : Shape := ⟨2, ![262144, 224]⟩
abbrev S8192x16 : Shape := ⟨2, ![8192, 16]⟩
abbrev S8192x1 : Shape := ⟨2, ![8192, 1]⟩
abbrev S8192x224 : Shape := ⟨2, ![8192, 224]⟩
abbrev S2048x16 : Shape := ⟨2, ![2048, 16]⟩
abbrev S2048x224 : Shape := ⟨2, ![2048, 224]⟩
abbrev S2048x1 : Shape := ⟨2, ![2048, 1]⟩

abbrev nBuf : Space → Nat
  | .hbm => 6
  | .vmem => 7
  | .smem => 0
  | _ => 0

abbrev bufTy : (tb : Table) → Fin (tcTables nBuf tb) → BufTy
  | .hbm, ⟨0, _⟩ => ⟨S262144x16, .f32⟩
  | .hbm, ⟨1, _⟩ => ⟨S16x224, .f32⟩
  | .hbm, ⟨2, _⟩ => ⟨S262144, .f32⟩
  | .hbm, ⟨3, _⟩ => ⟨S262144x1, .f32⟩
  | .hbm, ⟨4, _⟩ => ⟨S16x224, .bf16⟩
  | .hbm, ⟨5, _⟩ => ⟨S262144x224, .f32⟩
  | .local _ .vmem, ⟨0, _⟩ => ⟨S8192x16, .f32⟩
  | .local _ .vmem, ⟨1, _⟩ => ⟨S8192x16, .f32⟩
  | .local _ .vmem, ⟨2, _⟩ => ⟨S16x224, .bf16⟩
  | .local _ .vmem, ⟨3, _⟩ => ⟨S8192x1, .f32⟩
  | .local _ .vmem, ⟨4, _⟩ => ⟨S8192x1, .f32⟩
  | .local _ .vmem, ⟨5, _⟩ => ⟨S8192x224, .f32⟩
  | .local _ .vmem, ⟨6, _⟩ => ⟨S8192x224, .f32⟩
  | _, _ => ⟨S262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2048_i32 : BitVec 32 := 2048#32
  let v3 : BitVec 32 := Scalar.muli arg5 c2048_i32
  v3
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v3 : BitVec 32 := Scalar.muli arg5 c2048_i32
  let v4 : BitVec 32 := v3
  let v5 : Index := Scalar.indexCast v4
  let c0_2 : Index := 0#32
  ![v5.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v3 : BitVec 32 := Scalar.muli arg5 c2048_i32
  let v4 : BitVec 32 := v3
  let v9 : Index := Scalar.indexCast v4
  let c0_3 : Index := 0#32
  ![v9.toNat, 0]
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v3 : BitVec 32 := Scalar.muli arg5 c2048_i32
  let v4 : BitVec 32 := v3
  let v16 : Index := Scalar.indexCast v4
  let c0_4 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144_S262144x1 : S262144.ShapeCasts S262144x1
  bitsLt_bf16_f32 : FTy.bits .bf16 < FTy.bits .f32
  inb_S16x224_S16x224_0_0 : ∀ a, (![0, 0] : Fin 2 → Nat) a + S16x224.size a ≤ S16x224.size a
  h_S16x224 : 0 < S16x224.numel
  shapeCasts_S16x224_S16x224 : S16x224.ShapeCasts S16x224
  h_S2048x16 : 0 < S2048x16.numel
  h_S2048x1 : 0 < S2048x1.numel
  shapeCasts_S2048x1_S2048x1 : S2048x1.ShapeCasts S2048x1
  broadcasts_S2048x1_S2048x224 : S2048x1.Broadcasts S2048x224
  h_S2048x224 : 0 < S2048x224.numel
  dot_S2048x16_S16x224_S2048x224_1_0_0_1_n_n_wf : DotDims.WF S2048x16 S16x224 S2048x224 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x16.size a ≤ S8192x16.size a
  k0_off2_inb : ∀ k0_t1 : Fin k0_t1_loop.trips, ∀ a, (k0_off2 k0_t1) a + S2048x1.size a ≤ S8192x1.size a
  k0_off3_inb : ∀ k0_t1 : Fin k0_t1_loop.trips, ∀ a, (k0_off3 k0_t1) a + S2048x224.size a ≤ S8192x224.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S262144x16.size a
  hwx0_0 : ∀ i : grid0.Coords, EltTy.bits .f32 = 32 ∨ (Rect.block (s := S262144x16) S8192x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x224.size a ≤ S16x224.size a
  hwx0_1 : ∀ i : grid0.Coords, EltTy.bits .bf16 = 32 ∨ (Rect.block (s := S16x224) S16x224.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S262144x1.size a
  hwx0_2 : ∀ i : grid0.Coords, EltTy.bits .f32 = 32 ∨ (Rect.block (s := S262144x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x224.size a ≤ S262144x224.size a
  hwx0_3 : ∀ i : grid0.Coords, EltTy.bits .f32 = 32 ∨ (Rect.block (s := S262144x224) S8192x224.size (cc0_transform_3 i) (hinb0_3 i)).WholeWords (EltTy.packing .f32)

variable [Facts₀]

def dot_S2048x16_S16x224_S2048x224_1_0_0_1_n_n : DotDims S2048x16 S16x224 S2048x224 where
  lhsContracting := [1]
  rhsContracting := [0]
  lhsNonContracting := [0]
  rhsNonContracting := [1]
  lhsBatch := []
  rhsBatch := []
  wf := dot_S2048x16_S16x224_S2048x224_1_0_0_1_n_n_wf

abbrev win0_0 : Pipeline.Window sig grid0 :=
  Pipeline.Window.ofSpec (Memref.whole main_arg0) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192x224.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x16 : Shape := ⟨2, ![262144, 16]⟩
abbrev S16x224 : Shape := ⟨2, ![16, 224]⟩
abbrev S262144 : Shape := ⟨1, ![262144]⟩
abbrev S262144x224 : Shape := ⟨2, ![262144, 224]⟩
abbrev S262144x1 : Shape := ⟨2, ![262144, 1]⟩

abbrev nBuf : Space → Nat
  | .hbm => 9
  | .vmem => 0
  | .smem => 0
  | _ => 0

abbrev bufTy : (tb : Table) → Fin (tcTables nBuf tb) → BufTy
  | .hbm, ⟨0, _⟩ => ⟨S262144x16, .f32⟩
  | .hbm, ⟨1, _⟩ => ⟨S16x224, .f32⟩
  | .hbm, ⟨2, _⟩ => ⟨S262144, .f32⟩
  | .hbm, ⟨3, _⟩ => ⟨S262144x224, .f32⟩
  | .hbm, ⟨4, _⟩ => ⟨S262144x1, .f32⟩
  | .hbm, ⟨5, _⟩ => ⟨S262144x224, .f32⟩
  | .hbm, ⟨6, _⟩ => ⟨S262144x224, .f32⟩
  | .hbm, ⟨7, _⟩ => ⟨S262144x224, .f32⟩
  | .hbm, ⟨8, _⟩ => ⟨S262144x224, .f32⟩
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S262144x1_S262144x224_0_1 : S262144x1.BroadcastsInDim S262144x224 (![0, 1] : Fin 2 → Fin S262144x224.rank)
  dot_S262144x16_S16x224_S262144x224_1_0_0_1_n_n_wf : DotDims.WF S262144x16 S16x224 S262144x224 [1] [0] [0] [1] [] []

variable [Facts₀]

def dot_S262144x16_S16x224_S262144x224_1_0_0_1_n_n : DotDims S262144x16 S16x224 S262144x224 where
  lhsContracting := [1]
  rhsContracting := [0]
  lhsNonContracting := [0]
  rhsNonContracting := [1]
  lhsBatch := []
  rhsBatch := []
  wf := dot_S262144x16_S16x224_S262144x224_1_0_0_1_n_n_wf

class Facts : Prop extends Facts₀ where

variable [Facts]
-- ==== Proof.Spec.lean ====
/-
  The specification: the per-pixel polynomial mixing map as ONE function of the three argument arrays.
  For a pixel `r` (262144 of them) and a band `c` (224 of them) the linear mixture is
  `mix r c = ∑ k : Fin 16, x[r, k] · e[k, c]` and the result is `mix r c + b[r] · (mix r c · mix r c)`,
  read on the extended reals. The same map is also written for one block of 8192 pixels (what one grid
  point of the kernel holds in its staging buffers) and for the whole array with the coefficients laid out
  as a column; the three differ only in the index types. Nothing of either program is imported here.
-/
import Idealize.ShloMosaic.PureOps.Ideal
import Idealize.ShloMosaic.Lib.ValueIdx

noncomputable section

namespace Cert.Ppnm

open Idealize.ShloMosaic Idealize.ShloMosaic.ValueIdx

/-- One entry from its mixture `s` and its pixel's coefficient `β`: `s + β · s²`. -/
def pix (s β : EReal) : EReal := s + β * (s * s)

/-- The linear mixture of pixel `r` at band `c`: row `r` of the abundances against column `c` of the signatures. -/
def mix (x : (⟨2, ![262144, 16]⟩ : Shape).Idx → EReal) (e : (⟨2, ![16, 224]⟩ : Shape).Idx → EReal)
    (r : Fin 262144) (c : Fin 224) : EReal :=
  ∑ k : Fin 16, x (ix2 r k) * e (ix2 k c)

/-- The whole result array. -/
def G (x : (⟨2, ![262144, 16]⟩ : Shape).Idx → EReal) (e : (⟨2, ![16, 224]⟩ : Shape).Idx → EReal)
    (b : (⟨1, ![262144]⟩ : Shape).Idx → EReal) : (⟨2, ![262144, 224]⟩ : Shape).Idx → EReal :=
  fun i => pix (mix x e (i 0) (i 1)) (b (ix1 (i 0)))

/-- The whole result array when the coefficients come as a column of width one. -/
def GW (x : (⟨2, ![262144, 16]⟩ : Shape).Idx → EReal) (e : (⟨2, ![16, 224]⟩ : Shape).Idx → EReal)
    (b : (⟨2, ![262144, 1]⟩ : Shape).Idx → EReal) : (⟨2, ![262144, 224]⟩ : Shape).Idx → EReal :=
  fun i => pix (mix x e (i 0) (i 1)) (b (ix2 (i 0) (0 : Fin 1)))

/-- The mixture inside one block of 8192 pixels. -/
def mixB (x : (⟨2, ![8192, 16]⟩ : Shape).Idx → EReal) (e : (⟨2, ![16, 224]⟩ : Shape).Idx → EReal)
    (r : Fin 8192) (c : Fin 224) : EReal :=
  ∑ k : Fin 16, x (ix2 r k) * e (ix2 k c)

/-- One block of 8192 pixels of the result, from the block's abundances and its column of coefficients. -/
def GB (x : (⟨2, ![8192, 16]⟩ : Shape).Idx → EReal) (e : (⟨2, ![16, 224]⟩ : Shape).Idx → EReal)
    (b : (⟨2, ![8192, 1]⟩ : Shape).Idx → EReal) : (⟨2, ![8192, 224]⟩ : Shape).Idx → EReal :=
  fun y => pix (mixB x e (y 0) (y 1)) (b (ix2 (y 0) (0 : Fin 1)))

/-- A block entry is the whole array's entry when the block's row is the array's row of that pixel: the two
    mixtures agree term by term and the coefficient is the pixel's. -/
theorem GB_eq_GW_of (X0 : (⟨2, ![262144, 16]⟩ : Shape).Idx → EReal) (X1 : (⟨2, ![16, 224]⟩ : Shape).Idx → EReal)
    (X2 : (⟨2, ![262144, 1]⟩ : Shape).Idx → EReal)
    (b0 : (⟨2, ![8192, 16]⟩ : Shape).Idx → EReal) (b1 : (⟨2, ![16, 224]⟩ : Shape).Idx → EReal)
    (b2 : (⟨2, ![8192, 1]⟩ : Shape).Idx → EReal)
    (y : (⟨2, ![8192, 224]⟩ : Shape).Idx) (i : (⟨2, ![262144, 224]⟩ : Shape).Idx)
    (h0 : ∀ k : Fin 16, b0 (ix2 (y 0) k) = X0 (ix2 (i 0) k))
    (h1 : ∀ k : Fin 16, b1 (ix2 k (y 1)) = X1 (ix2 k (i 1)))
    (h2 : b2 (ix2 (y 0) (0 : Fin 1)) = X2 (ix2 (i 0) (0 : Fin 1))) :
    GB b0 b1 b2 y = GW X0 X1 X2 i := by
  show pix (∑ k : Fin 16, b0 (ix2 (y 0) k) * b1 (ix2 k (y 1))) (b2 (ix2 (y 0) (0 : Fin 1)))
    = pix (∑ k : Fin 16, X0 (ix2 (i 0) k) * X1 (ix2 k (i 1))) (X2 (ix2 (i 0) (0 : Fin 1)))
  rw [h2, Finset.sum_congr rfl fun k _ => by rw [h0 k, h1 k]]

end Cert.Ppnm

end
-- ==== Proof.RefIsG.lean ====
/-
  The reference computes the specification. Its six host operations — the matrix product of the abundances with
  the signatures, the coefficient vector broadcast first to a column and then along the bands, two products and a
  sum — are read one at a time at an index `i = (r, c)`: the product is the sum over the sixteen endmembers, each
  broadcast reads the coefficient of pixel `r`, and the elementwise operations act entrywise. What is left is the
  defining expression of `Cert.Ppnm.G` at `i`.
-/
import proofs.«172516_j90787018703189_2_alg».proof.Proof.Gen.ReferenceIdeal.Read
import proofs.«172516_j90787018703189_2_alg».proof.Proof.Spec

noncomputable section

namespace Cert.Ppnm.Ref

open Cert.ReferenceIdeal Cert.ReferenceIdeal.Read Idealize.ShloMosaic Idealize.ShloMosaic.ValueIdx

/-- The left operand of the product is read at row `r`, column `k`. -/
theorem lidx_eq (i : S262144x224.Idx) (k : Fin 16) : lidx_main_v0 i k = ix2 (i 0) k :=
  funext fun a => Fin.ext (by match a with | ⟨0, _⟩ => rfl | ⟨1, _⟩ => rfl)

/-- The right operand of the product is read at row `k`, column `c`. -/
theorem ridx_eq (i : S262144x224.Idx) (k : Fin 16) : ridx_main_v0 i k = ix2 k (i 1) :=
  funext fun a => Fin.ext (by match a with | ⟨0, _⟩ => rfl | ⟨1, _⟩ => rfl)

/-- Both broadcasts together read the coefficient of the pixel `r`. -/
theorem bidx_eq (i : S262144x224.Idx) : idx_main_v1 (idx_main_v3 i) = ix1 (i 0) :=
  funext fun a => Fin.ext (by match a with | ⟨0, _⟩ => rfl)

/-- The reference's result, as a function of its three arguments, is the specification. -/
theorem val_eq_G (x : (⟨S262144x16, .f32⟩ : BufTy).Contents (Elt Ideal)) (e : (⟨S16x224, .f32⟩ : BufTy).Contents (Elt Ideal))
    (b : (⟨S262144, .f32⟩ : BufTy).Contents (Elt Ideal)) :
    val_main_v5 (F := Ideal) x e b = Cert.Ppnm.G x e b := by
  funext i
  rw [val_main_v5_apply, val_main_v4_apply, val_main_v3_apply, val_main_v1_apply, val_main_v2_apply, val_main_v0_apply]
  simp only [lidx_eq, ridx_eq, bidx_eq]
  rfl

end Cert.Ppnm.Ref

end
-- ==== Proof.LibColumn.lean ====
/-
  Two layout facts about a COLUMN of width one, for any lengths: a vector of length `a` recast as an `[a, 1]` column
  reads, at `(i, u)`, the vector at `i`; and an `[a, 1]` column broadcast along a second axis of length `b` reads,
  at `(i, j)`, the column at `(i, 0)`. Both are the library's read-at-an-index lemmas with the coordinate arithmetic
  discharged. No program is imported.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to an `[a, 1]` column reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`: the unit axis is read at
    zero, the other at the same coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h (ix2 i j) (ix2 i (0 : Fin 1)) fun ax => by
    match ax with
    | ⟨0, _⟩ =>
      show i.val = if a = 1 then 0 else i.val
      by_cases ha : a = 1
      · rw [if_pos ha]; have := i.isLt; omega
      · rw [if_neg ha]
    | ⟨1, _⟩ => show 0 = if (1 : Nat) = 1 then 0 else j.val; rw [if_pos rfl]

end Cert.LibColumn
-- ==== Proof.Payload.lean ====
/-
  The body's arithmetic at one entry. One trip of the body's loop takes 2048 rows `a` of the block's abundances, the
  signatures `w` and the 2048 coefficients `β` (a column), multiplies `a` by `w` into a zero accumulator, and
  stores `s + β · (s · s)`. Read on the extended reals at row `p` and band `q`: the product is the sum over the
  sixteen endmembers of `a[p, k] · w[k, q]` (the zero accumulator adds nothing, the change of float format is the
  identity), the column broadcast along the bands reads `β[p, 0]`, and the rest is entrywise.
-/
import proofs.«172516_j90787018703189_2_alg».proof.Proof.Gen.KernelIdeal.Skeleton
import proofs.«172516_j90787018703189_2_alg».proof.Proof.Spec
import proofs.«172516_j90787018703189_2_alg».proof.Proof.LibColumn
import Idealize.ShloMosaic.Lib.Pipeline.Value
import Idealize.ShloMosaic.Lib.ValueIdx
import Idealize.ShloMosaic.PureOps.Ideal.Laws

noncomputable section

namespace Cert.Ppnm.Kern

open Cert.KernelIdeal Cert.KernelIdeal.Gen Idealize.ShloMosaic Idealize.ShloMosaic.ValueIdx

/-- The body's matrix product of a 2048-row slab with the signatures. -/
abbrev D := dot_S2048x16_S16x224_S2048x224_1_0_0_1_n_n

/-- Row coordinate of the left operand: the output's row. -/
theorem lhs0 (i : S2048x224.Idx) (κ : D.contr.Idx) : (D.lhsIdx i κ 0).val = (i 0).val := by
  unfold DotDims.lhsIdx
  rw [dif_neg (show ¬(0 : Fin S2048x16.rank) ∈ D.lhsBatch by decide),
    dif_pos (show (0 : Fin S2048x16.rank) ∈ D.lhsNonContracting by decide)]
  rfl

/-- Column coordinate of the right operand: the output's column. -/
theorem rhs1 (i : S2048x224.Idx) (κ : D.contr.Idx) : (D.rhsIdx i κ 1).val = (i 1).val := by
  unfold DotDims.rhsIdx
  rw [dif_neg (show ¬(1 : Fin S16x224.rank) ∈ D.rhsBatch by decide),
    dif_pos (show (1 : Fin S16x224.rank) ∈ D.rhsNonContracting by decide)]
  rfl

/-- The slab's product into a zero accumulator, at an entry: the sum over the sixteen endmembers. -/
theorem matmul_at (a : FVec Ideal S2048x16 .bf16) (w : FVec Ideal S16x224 .bf16) (p : Fin 2048) (q : Fin 224) :
    matmul D none a w (constant (F := Ideal) S2048x224 .f32 0x00000000#32) (ix2 p q)
      = ∑ k : Fin 16, a (ix2 p k) * w (ix2 k q) := by
  refine (Ideal.matmul_constant_zero_apply D none a w (ix2 p q)).trans ?_
  rw [← Equiv.sum_comp (contrEquiv1 D 16 rfl rfl).symm]
  refine Finset.sum_congr rfl fun k _ => ?_
  have hk := contrEquiv1_symm_val D 16 rfl rfl k
  have el : D.lhsIdx (ix2 p q) ((contrEquiv1 D 16 rfl rfl).symm k) = ix2 p k := funext fun ax => Fin.ext (by
    match ax with
    | ⟨0, _⟩ => exact lhs0 _ _
    | ⟨1, _⟩ => exact (D.lhsIdx_val_of_single rfl _ _).trans hk)
  have er : D.rhsIdx (ix2 p q) ((contrEquiv1 D 16 rfl rfl).symm k) = ix2 k q := funext fun ax => Fin.ext (by
    match ax with
    | ⟨0, _⟩ => exact (D.rhsIdx_val_of_single rfl _ _).trans hk
    | ⟨1, _⟩ => exact rhs1 _ _)
  rw [el, er]

/-- A column of width one broadcast along the bands reads the column at the row. -/
theorem col_at (β : FVec Ideal S2048x1 .f32) (p : Fin 2048) (q : Fin 224) :
    broadcastTo S2048x224 β broadcasts_S2048x1_S2048x224 (ix2 p q) = β (ix2 p (0 : Fin 1)) :=
  Cert.LibColumn.broadcastTo_a1_ab_apply β broadcasts_S2048x1_S2048x224 p q

/-- The stored value of one trip at row `p`, band `q`. -/
theorem pay_at (w : Vec Ideal S16x224 .bf16) (a : Vec Ideal S2048x16 .f32) (β : Vec Ideal S2048x1 .f32)
    (p : Fin 2048) (q : Fin 224) :
    k0_pay1 (F := Ideal) w a β (ix2 p q)
      = Cert.Ppnm.pix (∑ k : Fin 16, a (ix2 p k) * w (ix2 k q)) (β (ix2 p (0 : Fin 1))) := by
  have hm := matmul_at (truncf .bf16 a bitsLt_bf16_f32) (shapeCast S16x224 w shapeCasts_S16x224_S16x224) p q
  have hb := col_at (shapeCast S2048x1 β shapeCasts_S2048x1_S2048x1) p q
  rw [shapeCast_self] at hm hb
  show matmul D none (truncf .bf16 a bitsLt_bf16_f32) (shapeCast S16x224 w shapeCasts_S16x224_S16x224)
        (constant (F := Ideal) S2048x224 .f32 0x00000000#32) (ix2 p q)
      + broadcastTo S2048x224 (shapeCast S2048x1 β shapeCasts_S2048x1_S2048x1) broadcasts_S2048x1_S2048x224 (ix2 p q)
        * (matmul D none (truncf .bf16 a bitsLt_bf16_f32) (shapeCast S16x224 w shapeCasts_S16x224_S16x224)
            (constant (F := Ideal) S2048x224 .f32 0x00000000#32) (ix2 p q)
          * matmul D none (truncf .bf16 a bitsLt_bf16_f32) (shapeCast S16x224 w shapeCasts_S16x224_S16x224)
            (constant (F := Ideal) S2048x224 .f32 0x00000000#32) (ix2 p q)) = _
  rw [shapeCast_self, shapeCast_self, hm, hb]
  rfl

end Cert.Ppnm.Kern

end
-- ==== Proof.Pieces.lean ====
/-
  What one grid point leaves in the output's staging buffer. The body's loop runs four trips; trip `k` stores, at
  rows `2048·k … 2048·k + 2047` of the 8192-row block, the value computed from the same rows of the abundance block
  and of the coefficient column (and from the whole signature matrix). So every stored piece is the restriction of ONE
  function of the block index — `Cert.Ppnm.GB` of the three staged blocks — and since the four pieces tile the block,
  the buffer ends holding that function.
-/
import proofs.«172516_j90787018703189_2_alg».proof.Proof.Gen.KernelIdeal.Frame
import proofs.«172516_j90787018703189_2_alg».proof.Proof.Payload
import Idealize.ShloMosaic.Lib.Pipeline.Value

noncomputable section

namespace Cert.Ppnm.Kern

open Cert.KernelIdeal Cert.KernelIdeal.Gen Idealize.ShloMosaic Idealize.ShloMosaic.ValueIdx Idealize.SL.Sem

variable {F : FTy → Type} [FloatOps F]

theorem hz : (![0, 0] : Fin 2 → Nat) = fun _ => 0 := funext fun a => by fin_cases a <;> rfl

/-- The pieces the whole body leaves are the pieces of its four trips, over the signatures as loaded once before the
    loop and the two input buffers at their contents. -/
theorem run_pieces (c : Dev nD) (i : grid0.Coords) (a1 : Memref sig .tc .vmem S8192x16 .f32) (h1 : a1.IsWhole)
    (a2 : Memref sig .tc .vmem S16x224 .bf16) (h2 : a2.IsWhole) (a3 : Memref sig .tc .vmem S8192x1 .f32) (h3 : a3.IsWhole)
    (a4 : Memref sig .tc .vmem S8192x224 .f32) (h4 : a4.IsWhole)
    (x0 : Vec F S8192x16 .f32) (x1 : Vec F S16x224 .bf16) (x2 : Vec F S8192x1 .f32) :
    (kernelRun0_A c i a1 h1 a2 h2 a3 h3 a4 h4 x0 x1 x2).1
      = pb_k0_t1 Variants.none c none i a1 h1 a2 h2 a3 h3 a4 h4
          (View.readAt (Elt F) a2.view (Rect.unit (s := S16x224) ![0, 0] S16x224.size inb_S16x224_S16x224_0_0).toLoadRect (h2.unread x1))
          (h1.unread x0) (h3.unread x2) k0_t1_loop.trips := by
  unfold kernelRun0_A
  rfl

/-- Trip `k` leaves one piece: a store at the trip's rows of the trip's value of the loads at the trip's rows. -/
theorem trip_piece (𝒱 : Variants) (c : Dev nD) (bd : Option 𝒱.V) (i : grid0.Coords)
    (a1 : Memref sig .tc .vmem S8192x16 .f32) (h1 : a1.IsWhole)
    (a2 : Memref sig .tc .vmem S16x224 .bf16) (h2 : a2.IsWhole) (a3 : Memref sig .tc .vmem S8192x1 .f32) (h3 : a3.IsWhole)
    (a4 : Memref sig .tc .vmem S8192x224 .f32) (h4 : a4.IsWhole) (v0 : Vec F S16x224 .bf16)
    (X1 : BufTy.Contents (Elt F) a1.view.ty) (X3 : BufTy.Contents (Elt F) a3.view.ty) (k : Fin k0_t1_loop.trips) :
    tripL_k0_t1 (F := F) 𝒱 c bd i a1 h1 a2 h2 a3 h3 a4 h4 v0 X1 X3 k
      = [⟨Rect.unit (s := S8192x224) (k0_off3 k) S2048x224.size (k0_off3_inb k),
          k0_pay1 v0
            (View.readAt (Elt F) a1.view (Rect.unit (s := S8192x16) (k0_off1 k) S2048x16.size (k0_off1_inb k)).toLoadRect X1)
            (View.readAt (Elt F) a3.view (Rect.unit (s := S8192x1) (k0_off2 k) S2048x1.size (k0_off2_inb k)).toLoadRect X3)⟩] := by
  unfold tripL_k0_t1 trip_k0_t1
  rfl

/-- Trip `k`'s stored value at its local entry `(p, q)` is the block function at row `2048·k + p`, band `q`. -/
theorem piece_agrees (a1 : Memref sig .tc .vmem S8192x16 .f32) (h1 : a1.IsWhole)
    (a2 : Memref sig .tc .vmem S16x224 .bf16) (h2 : a2.IsWhole) (a3 : Memref sig .tc .vmem S8192x1 .f32) (h3 : a3.IsWhole)
    (x0 : Vec Ideal S8192x16 .f32) (x1 : Vec Ideal S16x224 .bf16) (x2 : Vec Ideal S8192x1 .f32)
    (k : Fin k0_t1_loop.trips) (x : S2048x224.Idx) :
    k0_pay1 (F := Ideal)
        (View.readAt (Elt Ideal) a2.view (Rect.unit (s := S16x224) ![0, 0] S16x224.size inb_S16x224_S16x224_0_0).toLoadRect (h2.unread x1))
        (View.readAt (Elt Ideal) a1.view (Rect.unit (s := S8192x16) (k0_off1 k) S2048x16.size (k0_off1_inb k)).toLoadRect (h1.unread x0))
        (View.readAt (Elt Ideal) a3.view (Rect.unit (s := S8192x1) (k0_off2 k) S2048x1.size (k0_off2_inb k)).toLoadRect (h3.unread x2)) x
      = Cert.Ppnm.GB x0 x1 x2 ((Rect.unit (s := S8192x224) (k0_off3 k) S2048x224.size (k0_off3_inb k)).emb x) := by
  obtain ⟨p, q, rfl⟩ : ∃ (p : Fin 2048) (q : Fin 224), x = ix2 p q := ⟨x 0, x 1, eq_ix2 x⟩
  have o1 : k0_off1 k = ![2048 * k.val, 0] := k0_off1_eq k
  have o2 : k0_off2 k = ![2048 * k.val, 0] := k0_off2_eq k
  have o3 : k0_off3 k = ![2048 * k.val, 0] := k0_off3_eq k
  have o10 : k0_off1 k 0 = 2048 * k.val := congrFun o1 0
  have o11 : k0_off1 k 1 = 0 := congrFun o1 1
  have o20 : k0_off2 k 0 = 2048 * k.val := congrFun o2 0
  have o21 : k0_off2 k 1 = 0 := congrFun o2 1
  have o30 : k0_off3 k 0 = 2048 * k.val := congrFun o3 0
  have o31 : k0_off3 k 1 = 0 := congrFun o3 1
  rw [View.readAt_eq_ld, View.readAt_eq_ld, View.readAt_eq_ld, h1.read_unread, h2.read_unread, h3.read_unread,
    View.ld_unit_zero (S := S16x224) hz, pay_at]
  -- the rows the trip loads are the rows it stores
  have e0 : ∀ κ : Fin 16, View.ld x0 (Rect.unit (s := S8192x16) (k0_off1 k) S2048x16.size (k0_off1_inb k)) (ix2 p κ)
      = x0 (ix2 ((Rect.unit (s := S8192x224) (k0_off3 k) S2048x224.size (k0_off3_inb k)).emb (ix2 p q) 0) κ) := fun κ =>
    congrArg x0 (funext fun ax => Fin.ext (by
      match ax with
      | ⟨0, _⟩ => show k0_off1 k 0 + 1 * p.val = k0_off3 k 0 + 1 * p.val; rw [o10, o30]
      | ⟨1, _⟩ => show k0_off1 k 1 + 1 * κ.val = κ.val; rw [o11]; omega))
  have e2 : View.ld x2 (Rect.unit (s := S8192x1) (k0_off2 k) S2048x1.size (k0_off2_inb k)) (ix2 p (0 : Fin 1))
      = x2 (ix2 ((Rect.unit (s := S8192x224) (k0_off3 k) S2048x224.size (k0_off3_inb k)).emb (ix2 p q) 0) (0 : Fin 1)) :=
    congrArg x2 (funext fun ax => Fin.ext (by
      match ax with
      | ⟨0, _⟩ => show k0_off2 k 0 + 1 * p.val = k0_off3 k 0 + 1 * p.val; rw [o20, o30]
      | ⟨1, _⟩ => show k0_off2 k 1 + 1 * 0 = 0; rw [o21]))
  have e1 : ((Rect.unit (s := S8192x224) (k0_off3 k) S2048x224.size (k0_off3_inb k)).emb (ix2 p q) 1 : Fin 224) = q :=
    Fin.ext (by show k0_off3 k 1 + 1 * q.val = q.val; rw [o31]; omega)
  show Cert.Ppnm.pix _ _ = Cert.Ppnm.pix
    (∑ κ : Fin 16, x0 (ix2 ((Rect.unit (s := S8192x224) (k0_off3 k) S2048x224.size (k0_off3_inb k)).emb (ix2 p q) 0) κ)
      * x1 (ix2 κ ((Rect.unit (s := S8192x224) (k0_off3 k) S2048x224.size (k0_off3_inb k)).emb (ix2 p q) 1)))
    (x2 (ix2 ((Rect.unit (s := S8192x224) (k0_off3 k) S2048x224.size (k0_off3_inb k)).emb (ix2 p q) 0) (0 : Fin 1)))
  rw [e1, e2, Finset.sum_congr rfl fun κ _ => by rw [e0 κ]]

/-- Every piece of the first `n` trips is a restriction of the block function. -/
theorem pb_agrees (c : Dev nD) (i : grid0.Coords) (a1 : Memref sig .tc .vmem S8192x16 .f32) (h1 : a1.IsWhole)
    (a2 : Memref sig .tc .vmem S16x224 .bf16) (h2 : a2.IsWhole) (a3 : Memref sig .tc .vmem S8192x1 .f32) (h3 : a3.IsWhole)
    (a4 : Memref sig .tc .vmem S8192x224 .f32) (h4 : a4.IsWhole)
    (x0 : Vec Ideal S8192x16 .f32) (x1 : Vec Ideal S16x224 .bf16) (x2 : Vec Ideal S8192x1 .f32) :
    ∀ (n : ℕ) (_ : n ≤ k0_t1_loop.trips),
      ∀ pc ∈ pb_k0_t1 (F := Ideal) Variants.none c none i a1 h1 a2 h2 a3 h3 a4 h4
          (View.readAt (Elt Ideal) a2.view (Rect.unit (s := S16x224) ![0, 0] S16x224.size inb_S16x224_S16x224_0_0).toLoadRect (h2.unread x1))
          (h1.unread x0) (h3.unread x2) n,
        ∀ x : pc.1.shape.Idx, pc.2 x = Cert.Ppnm.GB x0 x1 x2 (pc.1.emb x)
  | 0, _ => fun pc hpc => absurd hpc (by rw [pb_k0_t1.eq_1]; exact List.not_mem_nil)
  | n + 1, hn => fun pc hpc x => by
    have hs := pb_k0_t1_succ (F := Ideal) Variants.none c none i a1 h1 a2 h2 a3 h3 a4 h4
      (View.readAt (Elt Ideal) a2.view (Rect.unit (s := S16x224) ![0, 0] S16x224.size inb_S16x224_S16x224_0_0).toLoadRect (h2.unread x1))
      (h1.unread x0) (h3.unread x2) ⟨n, hn⟩
    rw [trip_piece] at hs
    rw [show n + 1 = (⟨n, hn⟩ : Fin k0_t1_loop.trips).val + 1 from rfl, hs] at hpc
    rcases List.mem_append.mp hpc with h | h
    · rw [List.mem_singleton] at h
      subst h
      exact piece_agrees a1 h1 a2 h2 a3 h3 x0 x1 x2 ⟨n, hn⟩ x
    · exact pb_agrees c i a1 h1 a2 h2 a3 h3 a4 h4 x0 x1 x2 n (Nat.le_of_succ_le hn) pc h x

/-- What the body leaves in the output's staging buffer, from the three staged blocks: the block function. -/
theorem out_eq (c : Dev nD) (i : grid0.Coords) (a1 : Memref sig .tc .vmem S8192x16 .f32) (h1 : a1.IsWhole)
    (a2 : Memref sig .tc .vmem S16x224 .bf16) (h2 : a2.IsWhole) (a3 : Memref sig .tc .vmem S8192x1 .f32) (h3 : a3.IsWhole)
    (a4 : Memref sig .tc .vmem S8192x224 .f32) (h4 : a4.IsWhole)
    (x0 : Vec Ideal S8192x16 .f32) (x1 : Vec Ideal S16x224 .bf16) (x2 : Vec Ideal S8192x1 .f32) :
    out0_A_3 (F := Ideal) c i a1 h1 a2 h2 a3 h3 a4 h4 x0 x1 x2 = Cert.Ppnm.GB x0 x1 x2 := by
  unfold out0_A_3
  rw [View.read_writes_eq_canon _ _ _ (cover0_A_3 c i a1 h1 a2 h2 a3 h3 a4 h4 x0 x1 x2)]
  funext y
  refine View.canon_apply_of_pieces (Cert.Ppnm.GB x0 x1 x2) _ ?_ y (cover0_A_3 c i a1 h1 a2 h2 a3 h3 a4 h4 x0 x1 x2 y)
  rw [run_pieces]
  exact pb_agrees c i a1 h1 a2 h2 a3 h3 a4 h4 x0 x1 x2 k0_t1_loop.trips le_rfl

end Cert.Ppnm.Kern

end
-- ==== Proof.Blocks.lean ====
/-
  From blocks to the array. Grid point `t` stages rows `8192·t … 8192·t + 8191` of the abundances and of the
  coefficient column, and the whole signature matrix, and writes back the same rows of the result. What it writes back
  is the block function of the staged blocks (Pieces), and a block's row `p` IS the array's row `8192·t + p`: so the
  write-back is block `t` of ONE whole-array function, `Cert.Ppnm.GW` of the arrays as the kernel's region finds
  them. The 32 blocks tile the 262144 rows, so after the run the result array is that function. Before the region the
  host has recast the coefficient vector as a column and changed the signatures' float format (the identity on the
  extended reals): with both undone the function is `Cert.Ppnm.G` of the three arguments.
-/
import proofs.«172516_j90787018703189_2_alg».proof.Proof.Gen.KernelIdeal.Value
import proofs.«172516_j90787018703189_2_alg».proof.Proof.Pieces
import proofs.«172516_j90787018703189_2_alg».proof.Proof.LibColumn
import Idealize.ShloMosaic.Lib.StableHlo.Run

noncomputable section

namespace Cert.Ppnm.Kern

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The index maps, decided over the 32 grid points: the abundance and coefficient windows move with the output's
    window along the rows, every other block index is zero, and the output's row-block index stays below 32. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 31 :=
  (by decide +kernel : ∀ t : Fin grid0.N, _)

/-- Every row block is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- A staged block read at an entry is its array, as the region finds it, read where the block sits. -/
theorem blk0_at (c : Dev nD) (t : Fin cfg0.N) (y : S8192x16.Idx) :
    iblk m c 0 t y = V m c main_arg0 (((cfg0.win 0).blk t).view.emb y) := by
  unfold iblk; rw [View.read_apply]; rfl
theorem blk1_at (c : Dev nD) (t : Fin cfg0.N) (y : S16x224.Idx) :
    iblk m c 1 t y = V m c main_v1 (((cfg0.win 1).blk t).view.emb y) := by
  unfold iblk; rw [View.read_apply]; rfl
theorem blk2_at (c : Dev nD) (t : Fin cfg0.N) (y : S8192x1.Idx) :
    iblk m c 2 t y = V m c main_v0 (((cfg0.win 2).blk t).view.emb y) := by
  unfold iblk; rw [View.read_apply]; rfl

/-- WHAT POINT `t` WRITES BACK is block `t` of the whole-array function of the arrays as the region finds them. -/
theorem flushed_eq (c : Dev nD) (t : Fin cfg0.N) :
    (dats m 0 c).flushed 3 t
      = ((cfg0.win 3).blk t).view.read (Elt Ideal) (Cert.Ppnm.GW (V m c main_arg0) (V m c main_v1) (V m c main_v0)) := by
  rw [flushed3_A, out_eq]
  obtain ⟨e00, e01, e10, e11, e20, e21, e31, -⟩ := idx_facts t
  funext j
  show Cert.Ppnm.GB (iblk m c 0 t) (iblk m c 1 t) (iblk m c 2 t) j
    = Cert.Ppnm.GW (V m c main_arg0) (V m c main_v1) (V m c main_v0) (((cfg0.win 3).blk t).view.emb j)
  refine Cert.Ppnm.GB_eq_GW_of (V m c main_arg0) (V m c main_v1) (V m c main_v0) (iblk m c 0 t) (iblk m c 1 t) (iblk m c 2 t)
    j (((cfg0.win 3).blk t).view.emb j) (fun k => ?_) (fun k => ?_) ?_
  · rw [blk0_at]
    refine congrArg (V m c main_arg0) (funext fun a => Fin.ext ?_)
    match a with
    | ⟨0, _⟩ => show win0_0.index t (0 : Fin 2) * 8192 + 1 * (j 0).val = win0_3.index t (0 : Fin 2) * 8192 + 1 * (j 0).val; rw [e00]
    | ⟨1, _⟩ => show win0_0.index t (1 : Fin 2) * 16 + 1 * k.val = k.val; rw [e01]; omega
  · rw [blk1_at]
    refine congrArg (V m c main_v1) (funext fun a => Fin.ext ?_)
    match a with
    | ⟨0, _⟩ => show win0_1.index t (0 : Fin 2) * 16 + 1 * k.val = k.val; rw [e10]; omega
    | ⟨1, _⟩ => show win0_1.index t (1 : Fin 2) * 224 + 1 * (j 1).val = win0_3.index t (1 : Fin 2) * 224 + 1 * (j 1).val; rw [e11, e31]
  · rw [blk2_at]
    refine congrArg (V m c main_v0) (funext fun a => Fin.ext ?_)
    match a with
    | ⟨0, _⟩ => show win0_2.index t (0 : Fin 2) * 8192 + 1 * (j 0).val = win0_3.index t (0 : Fin 2) * 8192 + 1 * (j 0).val; rw [e20]
    | ⟨1, _⟩ => show win0_2.index t (1 : Fin 2) * 1 + 1 * 0 = 0; rw [e21]

/-- An index of the result array is in point `t`'s block iff each coordinate is in the block's range on its axis. -/
theorem mem_blk (t : Fin cfg0.N) (i : S262144x224.Idx) :
    i ∈ ((cfg0.win 3).blk t).view.set ↔ ∀ a : Fin 2, win0_3.index t a * S8192x224.size a ≤ (i a).val ∧ (i a).val < win0_3.index t a * S8192x224.size a + S8192x224.size a := by
  show i ∈ ((View.whole main_v2).slice (win0_3.rect t)).set ↔ _
  rw [View.set_slice_whole, Rect.mem_set_unit]
  exact Iff.rfl

/-- The blocks tile the array: row `r` lies in the block of the point whose row-block index is `r / 8192`. -/
theorem cover (i : S262144x224.Idx) :
    ∃ t : Fin cfg0.N, (cfg0.win 3).flush t = true ∧ i ∈ ((cfg0.win 3).blk t).view.set := by
  have hi0 : (i 0).val < 262144 := (i 0).isLt
  have hi1 : (i 1).val < 224 := (i 1).isLt
  obtain ⟨t, ht⟩ := idx_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 224 ≤ (i 1).val ∧ (i 1).val < win0_3.index t (1 : Fin 2) * 224 + 224; omega

/-- The coefficient column the region finds: the host's recast of the coefficient vector. -/
theorem V_col (c : Dev nD) :
    (V m c main_v0 : S262144x1.Idx → EReal)
      = shapeCast S262144x1 (m ((c : Thread nD τ).loc main_arg2)) shapeCasts_S262144_S262144x1 := by
  dsimp only [V, hostOps0]; after_results; rfl

/-- The signatures the region finds: the argument after the host's change of float format. -/
theorem V_sig (c : Dev nD) :
    (V m c main_v1 : S16x224.Idx → EReal)
      = truncf (F := Ideal) .bf16 (m ((c : Thread nD τ).loc main_arg1)) bitsLt_bf16_f32 := by
  dsimp only [V, hostOps0]; after_results

/-- With the host's two preparations undone, the whole-array function is the specification of the three arguments. -/
theorem GW_eq_G (c : Dev nD) :
    Cert.Ppnm.GW (V m c main_arg0) (V m c main_v1) (V m c main_v0)
      = Cert.Ppnm.G (m ((c : Thread nD τ).loc main_arg0)) (m ((c : Thread nD τ).loc main_arg1)) (m ((c : Thread nD τ).loc main_arg2)) := by
  rw [V_main_arg0, V_col, V_sig]
  funext i
  have hb := Cert.LibColumn.shapeCast_a_a1_apply (m ((c : Thread nD τ).loc main_arg2)) shapeCasts_S262144_S262144x1
    (i 0) (0 : Fin 1)
  show Cert.Ppnm.pix (Cert.Ppnm.mix (m ((c : Thread nD τ).loc main_arg0)) (m ((c : Thread nD τ).loc main_arg1)) (i 0) (i 1))
      (shapeCast S262144x1 (m ((c : Thread nD τ).loc main_arg2)) shapeCasts_S262144_S262144x1 (ix2 (i 0) (0 : Fin 1)))
    = Cert.Ppnm.pix (Cert.Ppnm.mix (m ((c : Thread nD τ).loc main_arg0)) (m ((c : Thread nD τ).loc main_arg1)) (i 0) (i 1))
      (m ((c : Thread nD τ).loc main_arg2) (ix1 (i 0)))
  exact congrArg (Cert.Ppnm.pix (Cert.Ppnm.mix (m ((c : Thread nD τ).loc main_arg0)) (m ((c : Thread nD τ).loc main_arg1)) (i 0) (i 1))) hb

/-- THE ARRAY after the run: the specification of the three arguments. -/
theorem final (c : Dev nD) :
    (dats m 0 c).arrAt 3 cfg0.N
      = Cert.Ppnm.G (m ((c : Thread nD τ).loc main_arg0)) (m ((c : Thread nD τ).loc main_arg1)) (m ((c : Thread nD τ).loc main_arg2)) :=
  ((dats m 0 c).arrAt_eq_of_cover 3 (Cert.Ppnm.GW (V m c main_arg0) (V m c main_v1) (V m c main_v0))
    (fun t _ => flushed_eq m c t) cover).trans (GW_eq_G m c)

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2)
        = Cert.Ppnm.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Ppnm.Kern

end
-- ==== Proof.lean ====
/-
  The two programs compute the same polynomial mixing map on the extended reals.

  For abundances `x` (262144 pixels by 16 endmembers), signatures `e` (16 endmembers by 224 bands) and per-pixel
  coefficients `b`, both programs return, at pixel `r` and band `c`,
      s + b[r] · (s · s),   where  s = ∑ k, x[r, k] · e[k, c].
  The kernel does so 8192 pixels per grid point, each point in four passes of 2048 rows; it rounds both factors of the
  matrix product to a shorter float format first, which on the extended reals is the identity, and it accumulates the
  product into zero. The reference is one matrix product, two broadcasts, two products and a sum on the host. Since the
  two expressions are the same term by term (the same sixteen products in the same order, the same grouping), no law of
  arithmetic beyond `0 + s = s` is used and the inputs' finiteness is never needed.

  The modules: `Spec` states the map; `RefIsG` reads the reference's operations at an index; `Payload` reads one pass
  of the kernel's body at an index; `Pieces` shows the four passes fill the point's block with the block form of the
  map; `Blocks` assembles the 32 blocks into the array and undoes the host's two preparations of the operands. The
  three frames are the generated runs; the idealization rewrote nothing.
-/
import proofs.«172516_j90787018703189_2_alg».proof.Defs
import proofs.«172516_j90787018703189_2_alg».proof.Proof.Gen.Kernel
import proofs.«172516_j90787018703189_2_alg».proof.Proof.Gen.Kernel.Frame
import proofs.«172516_j90787018703189_2_alg».proof.Proof.Gen.KernelIdeal
import proofs.«172516_j90787018703189_2_alg».proof.Proof.Gen.KernelIdeal.Frame
import proofs.«172516_j90787018703189_2_alg».proof.Proof.Gen.KernelIdeal.Value
import proofs.«172516_j90787018703189_2_alg».proof.Proof.Gen.ReferenceIdeal
import proofs.«172516_j90787018703189_2_alg».proof.Proof.Gen.ReferenceIdeal.Run
import proofs.«172516_j90787018703189_2_alg».proof.Proof.Gen.ReferenceIdeal.Read
import proofs.«172516_j90787018703189_2_alg».proof.Proof.Gen.Pre_finite_inputs
import proofs.«172516_j90787018703189_2_alg».proof.Proof.RefIsG
import proofs.«172516_j90787018703189_2_alg».proof.Proof.Blocks

noncomputable section

namespace Cert.Proof

open Idealize.ShloMosaic Idealize.ShloMosaic.TcCoe Idealize.SL.Sem

/-- The word-level kernel terminates without a fault and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the specification of their (agreeing) arguments in the result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Ppnm.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Ppnm.Kern.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.Ppnm.Ref.val_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
